-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel

variable [Facts]

def fn {F : FTy → Type} [FloatOps F] (main_arg0 : FVec F S8x2048x128 .f32) (main_arg1 : FVec F S8x2048x128 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x128 .f32 := Host.absf main_arg1
  let main_cst_0 : FVec F S_ .f32 := constant S_ .f32 0x7F800000#32
  let main_v5 : FVec F S8x2048x128 .f32 := broadcastInDim S8x2048x128 ![] bcast_S_S8x2048x128 main_cst_0
  let main_v6 : IVec S8x2048x128 1 := cmpf .olt main_v4 main_v5
  let main_c_1 : IVec S_ 1 := constantI S_ 1 1#1
  let main_v7 : IVec S_ 1 := (fun x v => Host.reduce IntOp.andi x v reducesTo_S8x2048x128_S_d0_1_2 h_S_) main_v6 main_c_1
  let main_v8 : IVec S_ 1 := andi main_v3 main_v7
  main_v8
-- ==== Kernel.lean ====
abbrev S8x2048x128 : Shape := ⟨3, ![8, 2048, 128]⟩
abbrev S8x2048x2048 : Shape := ⟨3, ![8, 2048, 2048]⟩
abbrev S1x1024x128 : Shape := ⟨3, ![1, 1024, 128]⟩
abbrev S1x2048x128 : Shape := ⟨3, ![1, 2048, 128]⟩
abbrev S1x1024x2048 : Shape := ⟨3, ![1, 1024, 2048]⟩
abbrev S1024x128 : Shape := ⟨2, ![1024, 128]⟩
abbrev S2048x128 : Shape := ⟨2, ![2048, 128]⟩
abbrev S1024 : Shape := ⟨1, ![1024]⟩
abbrev S1024x1 : Shape := ⟨2, ![1024, 1]⟩
abbrev S2048 : Shape := ⟨1, ![2048]⟩
abbrev S2048x1 : Shape := ⟨2, ![2048, 1]⟩
abbrev S1x2048 : Shape := ⟨2, ![1, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x2048, .f32⟩
  | .local _ .vmem, ⟨0, _⟩ => ⟨S1x1024x128, .f32⟩
  | .local _ .vmem, ⟨1, _⟩ => ⟨S1x1024x128, .f32⟩
  | .local _ .vmem, ⟨2, _⟩ => ⟨S1x2048x128, .f32⟩
  | .local _ .vmem, ⟨3, _⟩ => ⟨S1x1024x2048, .f32⟩
  | .local _ .vmem, ⟨4, _⟩ => ⟨S1x1024x2048, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S1024x128_S1024 : S1024x128.Reduces [1] S1024
  shapeCasts_S1024_S1024x1 : S1024.ShapeCasts S1024x1
  reduces_S2048x128_S2048 : S2048x128.Reduces [1] S2048
  shapeCasts_S2048_S2048x1 : S2048.ShapeCasts S2048x1
  transposes_S2048x1_p1_0_S1x2048 : S2048x1.Transposes [1, 0] S1x2048
  bitsLt_bf16_f32 : FTy.bits .bf16 < FTy.bits .f32
  broadcasts_S1024x1_S1024x2048 : S1024x1.Broadcasts S1024x2048
  broadcasts_S1x2048_S1024x2048 : S1x2048.Broadcasts S1024x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S8x2048x128.size a
  hwx0_0 : ∀ i : grid0.Coords, EltTy.bits .f32 = 32 ∨ (Rect.block (s := S8x2048x128) S1x1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S8x2048x128.size a
  hwx0_1 : ∀ i : grid0.Coords, EltTy.bits .f32 = 32 ∨ (Rect.block (s := S8x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2048.size a ≤ S8x2048x2048.size a
  hwx0_2 : ∀ i : grid0.Coords, EltTy.bits .f32 = 32 ∨ (Rect.block (s := S8x2048x2048) S1x1024x2048.size (cc0_transform_2 i) (hinb0_2 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x2048, .f32⟩
  | .hbm, ⟨3, _⟩ => ⟨S8x2048x128, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S8x2048x128, .f32⟩
  | .hbm, ⟨8, _⟩ => ⟨S_, .f32⟩
  | .hbm, ⟨9, _⟩ => ⟨S8x2048, .f32⟩
  | .hbm, ⟨10, _⟩ => ⟨S8x1x2048, .f32⟩
  | .hbm, ⟨11, _⟩ => ⟨S_, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048x2048, .f32⟩
  | .hbm, ⟨30, _⟩ => ⟨S8x2048x2048, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  reducesTo_S8x2048x128_S8x2048_d2 : S8x2048x128.ReducesTo [2] S8x2048
  h_S_ : 0 < S_.numel
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S_S8x2048x2048 : S_.BroadcastsInDim S8x2048x2048 (![] : Fin 0 → Fin S8x2048x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  dot_S8x2048x128_S8x2048x128_S8x2048x2048_2_2_1_1_0_0_wf : DotDims.WF S8x2048x128 S8x2048x128 S8x2048x2048 [2] [2] [1] [1] [0] [0]

variable [Facts₀]

def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf

class Facts : Prop extends Facts₀ where

variable [Facts]
-- ==== Proof.Closeness.lean ====
/-
  The function both programs compute, stated once on the extended reals, with no program in sight.

  The arguments are two batches of phrases, `L` and `R`, each of shape [8, 2048, 128]: 8 batches, 2048 rows per batch,
  128 features per row. The result has shape [8, 2048, 2048]; its entry at (b, n, m) measures how close row n of `L`
  is to row m of `R` within batch b. With l and r those two rows, the squared Euclidean distance between them is
  expanded as  -2 (l · r) + ‖l‖² + ‖r‖²  (added in exactly this order, which is the order both programs use, so no
  law of addition is needed), clamped below at 0, and the entry is

        1 / max (1 + √(max (-2 (l · r) + ‖l‖² + ‖r‖², 0)), ε).

  The three inner products l · r, ‖l‖² = l · l and ‖r‖² = r · r are sums over the 128 features. The four numbers
  -2, 0, 1 and ε (the f32 nearest to 1e-7) are kept as the float words both programs spell; the same word denotes the
  same extended real on both sides, so none of them is ever evaluated.
-/
import Idealize.ShloMosaic.PureOps.Ideal
import Idealize.ShloMosaic.Lib.ValueIdx

noncomputable section

namespace Cert.Closeness

open Idealize.ShloMosaic Idealize.ShloMosaic.ValueIdx

/-- A batch of phrases: 8 batches of 2048 rows of 128 features, over the extended reals. -/
abbrev Phrases : Type := (⟨3, ![8, 2048, 128]⟩ : Shape).Idx → EReal

/-- The inner product, over the 128 features, of row `n` of `X` and row `m` of `Y` in batch `b`. -/
def rowDot (X Y : Phrases) (b : Fin 8) (n m : Fin 2048) : EReal :=
  ∑ k : Fin 128, X (ix3 b n k) * Y (ix3 b m k)

/-- The closeness of two rows from their inner product `d` and their squared norms `l` and `r`:
    `1 / max (1 + √(max (-2 d + l + r, 0)), ε)`. -/
def score (d l r : EReal) : EReal :=
  Ideal.div (Ideal.ofBits .f32 0x3F800000#32)
    (max (Ideal.ofBits .f32 0x3F800000#32
        + Ideal.sqrt (max (Ideal.ofBits .f32 0xC0000000#32 * d + l + r) (Ideal.ofBits .f32 0x00000000#32)))
      (Ideal.ofBits .f32 0x33D6BF95#32))

/-- The whole result: at (b, n, m), the closeness of row `n` of `L` and row `m` of `R` in batch `b`. -/
def closeness (L R : Phrases) : (⟨3, ![8, 2048, 2048]⟩ : Shape).Idx → EReal :=
  fun i => score (rowDot L R (i 0) (i 1) (i 2)) (rowDot L L (i 0) (i 1) (i 1)) (rowDot R R (i 0) (i 2) (i 2))

end Cert.Closeness

end
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.BodyValue.lean ====
/-
  What the kernel's body stores, read at an index on the extended reals.

  At a grid point the body holds one block of the left phrases, `x0` of shape [1, 1024, 128] (1024 rows of one batch),
  and the whole right batch, `x1` of shape [1, 2048, 128]. It stores a [1, 1024, 2048] block whose entry at (u, p, q)
  is `score` of three sums over the 128 features:

    • the inner product of row p of `x0` and row q of `x1`: the matrix unit contracts the feature axis of BOTH
      operands (the right one is never transposed) into a zero accumulator, and on the extended reals the rounding of
      the operands to bf16 on the way in is the identity;
    • the squared norm of row p of `x0`: the squares summed along the features, kept as a column, broadcast over
      the 2048 columns;
    • the squared norm of row q of `x1`: the same sum for the right batch, its column turned into a row and
      broadcast over the 1024 rows.

  The entrywise chain that follows (-2 d + l + r, max with 0, square root, 1 + ·, max with ε, 1 / ·) is `score` by
  unfolding.
-/
import proofs.«115737_j62225486184557_2_alg».proof.Proof.Gen.KernelIdeal.Skeleton
import proofs.«115737_j62225486184557_2_alg».proof.Proof.Closeness
import proofs.«115737_j62225486184557_2_alg».proof.Proof.LibKeepdims
import Idealize.ShloMosaic.Lib.ValueLayout
import Idealize.ShloMosaic.PureOps.Ideal.Laws

noncomputable section

namespace Cert.KernelIdeal.BodyValue

open Cert.KernelIdeal Cert.KernelIdeal.Gen
open Idealize.ShloMosaic Idealize.ShloMosaic.ValueIdx Cert.Closeness Cert.Keepdims

/-! ## The matrix product at an index -/

/-- The left operand is read at the output's row … -/
theorem lhs_row (i : S1024x2048.Idx) (κ : dot_S1024x128_S2048x128_S1024x2048_1_1_0_0_n_n.contr.Idx) :
    (dot_S1024x128_S2048x128_S1024x2048_1_1_0_0_n_n.lhsIdx i κ 0).val = (i 0).val := by
  unfold DotDims.lhsIdx
  rw [dif_neg (show ¬(0 : Fin S1024x128.rank) ∈ dot_S1024x128_S2048x128_S1024x2048_1_1_0_0_n_n.lhsBatch by decide),
    dif_pos (show (0 : Fin S1024x128.rank) ∈ dot_S1024x128_S2048x128_S1024x2048_1_1_0_0_n_n.lhsNonContracting by decide)]
  rfl
/-- … and at the contracted feature. -/
theorem lhs_feature (i : S1024x2048.Idx) (κ : dot_S1024x128_S2048x128_S1024x2048_1_1_0_0_n_n.contr.Idx) :
    (dot_S1024x128_S2048x128_S1024x2048_1_1_0_0_n_n.lhsIdx i κ 1).val = (κ ⟨0, by decide⟩).val :=
  dot_S1024x128_S2048x128_S1024x2048_1_1_0_0_n_n.lhsIdx_val_of_single rfl i κ
/-- The right operand is read at the row the output's COLUMN names … -/
theorem rhs_row (i : S1024x2048.Idx) (κ : dot_S1024x128_S2048x128_S1024x2048_1_1_0_0_n_n.contr.Idx) :
    (dot_S1024x128_S2048x128_S1024x2048_1_1_0_0_n_n.rhsIdx i κ 0).val = (i 1).val := by
  unfold DotDims.rhsIdx
  rw [dif_neg (show ¬(0 : Fin S2048x128.rank) ∈ dot_S1024x128_S2048x128_S1024x2048_1_1_0_0_n_n.rhsBatch by decide),
    dif_pos (show (0 : Fin S2048x128.rank) ∈ dot_S1024x128_S2048x128_S1024x2048_1_1_0_0_n_n.rhsNonContracting by decide)]
  rfl
/-- … and at the contracted feature. -/
theorem rhs_feature (i : S1024x2048.Idx) (κ : dot_S1024x128_S2048x128_S1024x2048_1_1_0_0_n_n.contr.Idx) :
    (dot_S1024x128_S2048x128_S1024x2048_1_1_0_0_n_n.rhsIdx i κ 1).val = (κ ⟨0, by decide⟩).val :=
  dot_S1024x128_S2048x128_S1024x2048_1_1_0_0_n_n.rhsIdx_val_of_single rfl i κ

/-- The product of a [1024, 128] by a [2048, 128] operand, both contracted along the features, into a zero
    accumulator: at (p, q) the inner product of row p of the left and row q of the right. -/
theorem matmul_rows (v : FVec Ideal S1024x128 .bf16) (w : FVec Ideal S2048x128 .bf16) (p : Fin 1024) (q : Fin 2048) :
    matmul dot_S1024x128_S2048x128_S1024x2048_1_1_0_0_n_n none v w (constant (F := Ideal) S1024x2048 .f32 0x00000000#32) (ix2 p q)
      = ∑ k : Fin 128, v (ix2 p k) * w (ix2 q k) := by
  refine (Ideal.matmul_constant_zero_apply dot_S1024x128_S2048x128_S1024x2048_1_1_0_0_n_n none v w (ix2 p q)).trans ?_
  rw [← Equiv.sum_comp (contrEquiv1 dot_S1024x128_S2048x128_S1024x2048_1_1_0_0_n_n 128 rfl rfl).symm]
  refine Finset.sum_congr rfl fun k _ => ?_
  have hk := contrEquiv1_symm_val dot_S1024x128_S2048x128_S1024x2048_1_1_0_0_n_n 128 rfl rfl k
  have el : dot_S1024x128_S2048x128_S1024x2048_1_1_0_0_n_n.lhsIdx (ix2 p q) ((contrEquiv1 dot_S1024x128_S2048x128_S1024x2048_1_1_0_0_n_n 128 rfl rfl).symm k) = ix2 p k :=
    funext fun a => Fin.ext (by
      match a with
      | ⟨0, _⟩ => exact lhs_row _ _
      | ⟨1, _⟩ => exact (lhs_feature _ _).trans hk)
  have er : dot_S1024x128_S2048x128_S1024x2048_1_1_0_0_n_n.rhsIdx (ix2 p q) ((contrEquiv1 dot_S1024x128_S2048x128_S1024x2048_1_1_0_0_n_n 128 rfl rfl).symm k) = ix2 q k :=
    funext fun a => Fin.ext (by
      match a with
      | ⟨0, _⟩ => exact rhs_row _ _
      | ⟨1, _⟩ => exact (rhs_feature _ _).trans hk)
  rw [el, er]

/-! ## The stored block at an index -/

/-- The body's stored block at (u, p, q) is `score` of the inner product of row p of the left block with row q of the
    right batch, and of the two rows' squared norms. -/
theorem stored_apply (x0 : Vec Ideal S1x1024x128 .f32) (x1 : Vec Ideal S1x2048x128 .f32) (u : Fin 1) (p : Fin 1024) (q : Fin 2048) :
    k0_pay1 (F := Ideal) x0 x1 (ix3 u p q)
      = score (∑ k : Fin 128, x0 (ix3 (0 : Fin 1) p k) * x1 (ix3 (0 : Fin 1) q k))
          (∑ k : Fin 128, x0 (ix3 (0 : Fin 1) p k) * x0 (ix3 (0 : Fin 1) p k))
          (∑ k : Fin 128, x1 (ix3 (0 : Fin 1) q k) * x1 (ix3 (0 : Fin 1) q k)) := by
  unfold k0_pay1
  refine (shapeCast_ab_1ab_apply _ _ u p q).trans ?_
  refine congr (congr (congrArg score ?_) ?_) ?_
  · refine (matmul_rows _ _ p q).trans (Finset.sum_congr rfl fun k _ => ?_)
    exact congr (congrArg HMul.hMul (shapeCast_1ab_ab_apply x0 _ p k)) (shapeCast_1ab_ab_apply x1 _ q k)
  · refine (rowSumSq_bcast_apply _ _ _ _ _ _ p q).trans (Finset.sum_congr rfl fun k _ => ?_)
    exact congr (congrArg HMul.hMul (shapeCast_1ab_ab_apply x0 _ p k)) (shapeCast_1ab_ab_apply x0 _ p k)
  · refine (colSumSq_bcast_apply _ _ _ _ _ _ _ p q).trans (Finset.sum_congr rfl fun k _ => ?_)
    exact congr (congrArg HMul.hMul (shapeCast_1ab_ab_apply x1 _ q k)) (shapeCast_1ab_ab_apply x1 _ q k)

end Cert.KernelIdeal.BodyValue

end
-- ==== Proof.ArrayValue.lean ====
/-
  From the blocks each grid point writes to the whole result array.

  The grid has 8 × 2 points. Point (b, h) stages rows 1024 h … 1024 h + 1023 of batch b of the left phrases (a
  [1, 1024, 128] block), the whole batch b of the right phrases (a [1, 2048, 128] block, the same for both h), and
  writes back the [1, 1024, 2048] block of the result at block index (b, h, 0). An element (u, p, q) of a block sits in
  its array, on each axis, at block index × block size + its own coordinate; so row p of the left block is row
  1024 h + p of batch b, row q of the right block is row q of batch b, and the stored entry (u, p, q) is the result's
  entry (b, 1024 h + p, q). By the body's value (`BodyValue.stored_apply`) that entry is `score` of the inner product
  and the squared norms of exactly those two rows: the block point (b, h) writes is the block of `closeness` of the
  two argument arrays. The 16 blocks tile the result (entry (b, n, m) lies in the block of point (b, n / 1024)), so
  after the run the result array is `closeness` of the arguments, which are unchanged.
-/
import proofs.«115737_j62225486184557_2_alg».proof.Proof.Gen.KernelIdeal.Value
import proofs.«115737_j62225486184557_2_alg».proof.Proof.BodyValue

noncomputable section

namespace Cert.KernelIdeal.ArrayValue

open Cert.KernelIdeal Cert.KernelIdeal.Gen Cert.KernelIdeal.Value
open Idealize.ShloMosaic Idealize.ShloMosaic.TcCoe Idealize.SL.Sem Idealize.ShloMosaic.ValueIdx Cert.Closeness
open Idealize.ShloMosaic.Pipeline (Dat)

variable (m : (ℓ : Loc nD τ sig) → Buf (Elt Ideal) ℓ) (ρ : Dev nD → PrngReg)

/-- The body loads and stores its staging buffers whole: at offsets zero. -/
theorem zero_offsets : (![0, 0, 0] : Fin 3 → Nat) = fun _ => 0 := funext fun a => by fin_cases a <;> rfl

/-- The three index maps, decided over the 16 grid points: the left window moves with the result on the batch and row-block
    axes, the right window on the batch axis only, every other block index is zero, and the result's block indices
    stay below 8 and 2. -/
theorem block_indices : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (2 : Fin 3) = 0 ∧ win0_2.index t (0 : Fin 3) ≤ 7 ∧ win0_2.index t (1 : Fin 3) ≤ 1 :=
  (by decide +kernel : ∀ t : Fin grid0.N, _)

/-- Every (batch, row-block) pair is some grid point's. -/
theorem block_onto : ∀ (q0 : Fin 8) (q1 : Fin 2), ∃ t : Fin cfg0.N, win0_2.index t = ![q0.val, q1.val, 0] :=
  (by decide +kernel : ∀ (q0 : Fin 8) (q1 : Fin 2), ∃ t : Fin grid0.N, win0_2.index t = ![q0.val, q1.val, 0])

/-- Row `p` of the left block at point `t` is row `n` of batch `b` of the left phrases, where `b` is the point's batch and
    `n` is `p` past the point's row-block. -/
theorem left_block (c : Dev nD) (t : Fin cfg0.N) (p : Fin 1024) (k : Fin 128) (b : Fin 8) (n : Fin 2048)
    (hb : b.val = win0_2.index t (0 : Fin 3)) (hn : n.val = win0_2.index t (1 : Fin 3) * 1024 + p.val) :
    (iblk m c 0 t : Vec Ideal S1x1024x128 .f32) (ix3 (0 : Fin 1) p k)
      = (V m c main_arg0 : S8x2048x128.Idx → EReal) (ix3 b n k) := by
  obtain ⟨e0, e1, e2, -⟩ := block_indices t
  unfold iblk
  rw [View.read_apply]
  show V m c main_arg0 _ = V m c main_arg0 _
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 1024 + 1 * p.val = n.val; omega
  | ⟨2, _⟩ => show win0_0.index t (2 : Fin 3) * 128 + 1 * k.val = k.val; omega

/-- Row `q` of the right block at point `t` is row `q` of batch `b` of the right phrases. -/
theorem right_block (c : Dev nD) (t : Fin cfg0.N) (q : Fin 2048) (k : Fin 128) (b : Fin 8)
    (hb : b.val = win0_2.index t (0 : Fin 3)) :
    (iblk m c 1 t : Vec Ideal S1x2048x128 .f32) (ix3 (0 : Fin 1) q k)
      = (V m c main_arg1 : S8x2048x128.Idx → EReal) (ix3 b q k) := by
  obtain ⟨-, -, -, e3, e4, e5, -⟩ := block_indices t
  unfold iblk
  rw [View.read_apply]
  show V m c main_arg1 _ = V m c main_arg1 _
  refine congrArg (V m c main_arg1) (funext fun a => Fin.ext ?_)
  match a with
  | ⟨0, _⟩ => show win0_1.index t (0 : Fin 3) * 1 + 1 * 0 = b.val; omega
  | ⟨1, _⟩ => show win0_1.index t (1 : Fin 3) * 2048 + 1 * q.val = q.val; omega
  | ⟨2, _⟩ => show win0_1.index t (2 : Fin 3) * 128 + 1 * k.val = k.val; omega

/-- What point `t` writes back is its block of `closeness` of the two argument arrays. -/
theorem flushed_eq (c : Dev nD) (t : Fin cfg0.N) :
    (dats m 0 c).flushed 2 t
      = ((cfg0.win 2).blk t).view.read (Elt Ideal) (closeness (V m c main_arg0) (V m c main_arg1)) := by
  rw [Value.flushed2]
  unfold out0_2
  rw [View.canon_unit_zero zero_offsets]
  simp only [View.ld_unit_zero (S := S1x1024x128) zero_offsets, View.ld_unit_zero (S := S1x2048x128) zero_offsets]
  funext j
  obtain ⟨u, p, q, rfl⟩ : ∃ (u : Fin 1) (p : Fin 1024) (q : Fin 2048), (j : S1x1024x2048.Idx) = ix3 u p q :=
    ⟨j 0, j 1, j 2, eq_ix3 j⟩
  obtain ⟨-, -, -, -, -, -, e6, e7, e8⟩ := block_indices t
  have hb : win0_2.index t (0 : Fin 3) < 8 := by omega
  have hn : win0_2.index t (1 : Fin 3) * 1024 + p.val < 2048 := by have := p.isLt; omega
  -- where the stored entry sits in the result array
  have hi : ((cfg0.win 2).blk t).view.emb (ix3 u p q)
      = (ix3 (⟨win0_2.index t (0 : Fin 3), hb⟩ : Fin 8) (⟨win0_2.index t (1 : Fin 3) * 1024 + p.val, hn⟩ : Fin 2048) q : S8x2048x2048.Idx) := by
    funext a
    apply Fin.ext
    match a with
    | ⟨0, _⟩ => show win0_2.index t (0 : Fin 3) * 1 + 1 * u.val = win0_2.index t (0 : Fin 3); have := u.isLt; omega
    | ⟨1, _⟩ => show win0_2.index t (1 : Fin 3) * 1024 + 1 * p.val = win0_2.index t (1 : Fin 3) * 1024 + p.val; omega
    | ⟨2, _⟩ => show win0_2.index t (2 : Fin 3) * 2048 + 1 * q.val = q.val; omega
  show k0_pay1 (F := Ideal) (iblk m c 0 t) (iblk m c 1 t) (ix3 u p q)
    = closeness (V m c main_arg0) (V m c main_arg1) (((cfg0.win 2).blk t).view.emb (ix3 u p q))
  rw [hi]
  refine (BodyValue.stored_apply (iblk m c 0 t) (iblk m c 1 t) u p q).trans ?_
  show score _ _ _ = score (rowDot (V m c main_arg0) (V m c main_arg1) ⟨_, hb⟩ ⟨_, hn⟩ q)
    (rowDot (V m c main_arg0) (V m c main_arg0) ⟨_, hb⟩ ⟨_, hn⟩ ⟨_, hn⟩) (rowDot (V m c main_arg1) (V m c main_arg1) ⟨_, hb⟩ q q)
  unfold rowDot
  refine congr (congr (congrArg score ?_) ?_) ?_ <;> refine Finset.sum_congr rfl fun k _ => ?_
  · rw [left_block m c t p k ⟨_, hb⟩ ⟨_, hn⟩ rfl rfl, right_block m c t q k ⟨_, hb⟩ rfl]
  · rw [left_block m c t p k ⟨_, hb⟩ ⟨_, hn⟩ rfl rfl]
  · rw [right_block m c t q k ⟨_, hb⟩ rfl]

/-- An index of the result is in point `t`'s block iff each coordinate is in the block's range on its axis. -/
theorem mem_block (t : Fin cfg0.N) (i : S8x2048x2048.Idx) :
    i ∈ ((cfg0.win 2).blk t).view.set ↔ ∀ a : Fin 3, win0_2.index t a * S1x1024x2048.size a ≤ (i a).val
      ∧ (i a).val < win0_2.index t a * S1x1024x2048.size a + S1x1024x2048.size a := by
  show i ∈ ((View.whole main_v0).slice (win0_2.rect t)).set ↔ _
  rw [View.set_slice_whole, Rect.mem_set_unit]
  exact Iff.rfl

/-- The blocks tile the result: entry (b, n, m) lies in the block of the point with batch b and row-block n / 1024. -/
theorem covered (i : S8x2048x2048.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 2048 := (i 2).isLt
  obtain ⟨t, ht⟩ := block_onto ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 2048 ≤ (i 2).val ∧ (i 2).val < win0_2.index t (2 : Fin 3) * 2048 + 2048; omega

/-- The result array after the run is `closeness` of the argument arrays as launched. -/
theorem final (c : Dev nD) :
    (dats m 0 c).arrAt 2 cfg0.N = closeness (m ((c : Thread nD τ).loc main_arg0)) (m ((c : Thread nD τ).loc main_arg1)) :=
  (dats m 0 c).arrAt_eq_of_cover 2 _ (fun t _ => flushed_eq m c t) covered

/-- The kernel's run, read: the result at `closeness` of the arguments, the arguments unchanged. -/
theorem run : θ_run defs (onTc (τ := τ) (main (F := Ideal))) ⟨m, fun _ => 0, ρ⟩ fun r => ∀ c : Dev nD,
      r.2.mem ((c : Thread nD τ).loc main_v0) = closeness (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.ReferenceValue.lean ====
/-
  The reference's result, read index by index on the extended reals, is `closeness` of its two arguments.

  The reference computes the inner products of all row pairs by one batched product (a sum over the 128 features of
  the left row at (b, n, k) times the right row at (b, m, k)), each row's squared norm by squaring and summing along
  the feature axis (the host's sum starts from the word 0, which denotes the extended real 0, and `0 + s = s`), places
  the left norms along the rows and the right norms along the columns by broadcasts, and then applies, entry by
  entry, the same chain  -2 d + l + r,  max with 0,  square root,  1 + ·,  max with ε,  1 / ·  that `score` spells.
  The host's square root and quotient are, on the extended reals, the same functions as a kernel's.
-/
import proofs.«115737_j62225486184557_2_alg».proof.Proof.Gen.ReferenceIdeal.Read
import proofs.«115737_j62225486184557_2_alg».proof.Proof.Closeness

noncomputable section

namespace Cert.ReferenceIdeal.RefValue

open Cert.ReferenceIdeal Cert.ReferenceIdeal.Gen Cert.ReferenceIdeal.Read
open Idealize.ShloMosaic Idealize.ShloMosaic.ValueIdx Cert.Closeness

/-- The reference's last stage is `closeness` of the two argument arrays. -/
theorem result_eq (x0 x1 : (⟨S8x2048x128, .f32⟩ : BufTy).Contents (Elt Ideal)) :
    val_main_v21 (F := Ideal) x0 x1 = closeness x0 x1 := by
  funext i
  -- the operand indices the stages compose, written by coordinates
  have eL : ∀ k : Fin 128, lidx_main_v0 i k = ix3 (i 0) (i 1) k := fun k =>
    funext fun a => Fin.ext (by match a with | ⟨0, _⟩ => rfl | ⟨1, _⟩ => rfl | ⟨2, _⟩ => rfl)
  have eR : ∀ k : Fin 128, ridx_main_v0 i k = ix3 (i 0) (i 2) k := fun k =>
    funext fun a => Fin.ext (by match a with | ⟨0, _⟩ => rfl | ⟨1, _⟩ => rfl | ⟨2, _⟩ => rfl)
  have eA : ∀ k : Fin 128, idx_main_v2 (idx_main_v3 (idx_main_v9 i)) k = ix3 (i 0) (i 1) k := fun k =>
    funext fun a => Fin.ext (by match a with | ⟨0, _⟩ => rfl | ⟨1, _⟩ => rfl | ⟨2, _⟩ => rfl)
  have eB : ∀ k : Fin 128, idx_main_v5 (idx_main_v6 (idx_main_v11 i)) k = ix3 (i 0) (i 2) k := fun k =>
    funext fun a => Fin.ext (by match a with | ⟨0, _⟩ => rfl | ⟨1, _⟩ => rfl | ⟨2, _⟩ => rfl)
  simp only [val_main_v21_apply, val_main_v20_apply, val_main_cst_5_apply, val_main_v19_apply, val_main_v17_apply,
    val_main_v16_apply, val_main_cst_3_apply, val_main_v15_apply, val_main_v14_apply, val_main_v12_apply,
    val_main_v10_apply, val_main_v8_apply, val_main_v7_apply, val_main_cst_1_apply, val_main_v0_apply,
    val_main_v9_apply, val_main_v3_apply, val_main_v2_apply, val_main_v1_apply, val_main_cst_apply,
    val_main_v11_apply, val_main_v6_apply, val_main_v5_apply, val_main_v4_apply, val_main_cst_0_apply,
    val_main_v13_apply, val_main_cst_2_apply, val_main_v18_apply, val_main_cst_4_apply,
    eL, eR, eA, eB, closeness, score, rowDot, val_main_v1, val_main_v4, mulf,
    Ideal.hostDivf_def, Ideal.maximumf_def, Ideal.addf_def, Ideal.mulf_def, Ideal.hostUnary_sqrt_def, Ideal.ofBits_def,
    Ideal.ofBits_zero_f32, zero_add]
  rfl

end Cert.ReferenceIdeal.RefValue

end
-- ==== Proof.lean ====
/-
  The proof of `Cert.Claim`: the kernel, its idealization and the reference run and leave their arguments unchanged;
  the idealization rewrote nothing of the kernel; and on the extended reals the idealized kernel and the idealized
  reference end with the same result.

  The mathematics is one function, `Closeness.closeness` (Proof/Closeness.lean): for two batches of phrases, the entry
  at (b, n, m) is  1 / max (1 + √(max (-2 (l · r) + ‖l‖² + ‖r‖², 0)), ε)  for l row n of the left batch b and r row m of
  the right batch b. The reference computes it with one batched product, two sums of squares and broadcasts
  (Proof/ReferenceValue.lean). The kernel computes it block by block: at each of its 8 × 2 grid points it multiplies a
  1024-row block of the left batch by the whole right batch on the matrix unit, sums the squares of both blocks' rows,
  and stores the entries' closeness (Proof/BodyValue.lean); the 16 stored blocks tile the result
  (Proof/ArrayValue.lean). The two programs differ only in how the sums over the 128 features are taken (a matrix
  product into a zero accumulator against a host product; a lane sum against a host sum from 0; operands rounded to
  bf16 on the way into the matrix unit), and on the extended reals each of those is the same finite sum, so no law of
  arithmetic beyond `0 + s = s` is used and the inputs' finiteness is never needed.
-/
import proofs.«115737_j62225486184557_2_alg».proof.Defs
import proofs.«115737_j62225486184557_2_alg».proof.Proof.Gen.Kernel
import proofs.«115737_j62225486184557_2_alg».proof.Proof.Gen.Kernel.Frame
import proofs.«115737_j62225486184557_2_alg».proof.Proof.Gen.KernelIdeal
import proofs.«115737_j62225486184557_2_alg».proof.Proof.Gen.KernelIdeal.Frame
import proofs.«115737_j62225486184557_2_alg».proof.Proof.Gen.KernelIdeal.Value
import proofs.«115737_j62225486184557_2_alg».proof.Proof.Gen.ReferenceIdeal
import proofs.«115737_j62225486184557_2_alg».proof.Proof.Gen.ReferenceIdeal.Run
import proofs.«115737_j62225486184557_2_alg».proof.Proof.Gen.ReferenceIdeal.Read
import proofs.«115737_j62225486184557_2_alg».proof.Proof.Gen.Pre_finite_inputs
import proofs.«115737_j62225486184557_2_alg».proof.Proof.ArrayValue
import proofs.«115737_j62225486184557_2_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel: there is nothing to preserve. -/
theorem preserves : Cert.preserves_Kernel_KernelIdeal := trivial

/-- From memories that agree on the two arguments, both idealized programs end with the result array at `closeness` of
    the arguments: the kernel by its blocks (`ArrayValue.run`), the reference by its stages (`RefValue.result_eq`). -/
theorem algebraic : Cert.algebraic_KernelIdeal_ReferenceIdeal := by
  intro m ρ m' ρ' _ hagree
  refine ⟨fun c => Cert.Closeness.closeness (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
